-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x16 : Shape := ⟨2, ![100000, 16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel

variable [Facts]

def fn {F : FTy → Type} [FloatOps F] (main_arg0 : FVec F S100000x128 .f32) (main_arg1 : IVec S100000x16 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  main_v3
-- ==== Kernel.lean ====
abbrev S100000x128 : Shape := ⟨2, ![100000, 128]⟩
abbrev S100000x16 : Shape := ⟨2, ![100000, 16]⟩
abbrev S100000x1 : Shape := ⟨2, ![100000, 1]⟩
abbrev S2000x128 : Shape := ⟨2, ![2000, 128]⟩
abbrev S2000x1 : Shape := ⟨2, ![2000, 1]⟩
abbrev S2000 : Shape := ⟨1, ![2000]⟩
abbrev S100000 : Shape := ⟨1, ![100000]⟩
abbrev S_ : Shape := ⟨0, ![]⟩
abbrev S100000x16x1 : Shape := ⟨3, ![100000, 16, 1]⟩
abbrev S10000x1 : Shape := ⟨2, ![10000, 1]⟩
abbrev S10000x128 : Shape := ⟨2, ![10000, 128]⟩

abbrev nBuf : Space → Nat
  | .hbm => 17
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S100000x16, .i32⟩
  | .hbm, ⟨2, _⟩ => ⟨S100000x1, .f32⟩
  | .hbm, ⟨3, _⟩ => ⟨S100000, .f32⟩
  | .hbm, ⟨4, _⟩ => ⟨S_, .i32⟩
  | .hbm, ⟨5, _⟩ => ⟨S100000x16, .i32⟩
  | .hbm, ⟨6, _⟩ => ⟨S100000x16, .i1⟩
  | .hbm, ⟨7, _⟩ => ⟨S_, .i32⟩
  | .hbm, ⟨8, _⟩ => ⟨S100000x16, .i32⟩
  | .hbm, ⟨9, _⟩ => ⟨S100000x16, .i32⟩
  | .hbm, ⟨10, _⟩ => ⟨S100000x16, .i32⟩
  | .hbm, ⟨11, _⟩ => ⟨S100000x16x1, .i32⟩
  | .hbm, ⟨12, _⟩ => ⟨S100000x16, .f32⟩
  | .hbm, ⟨13, _⟩ => ⟨S_, .f32⟩
  | .hbm, ⟨14, _⟩ => ⟨S100000, .f32⟩
  | .hbm, ⟨15, _⟩ => ⟨S100000x1, .f32⟩
  | .hbm, ⟨16, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S10000x1, .f32⟩
  | .local _ .vmem, ⟨5, _⟩ => ⟨S10000x1, .f32⟩
  | .local _ .vmem, ⟨6, _⟩ => ⟨S10000x128, .f32⟩
  | .local _ .vmem, ⟨7, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S2000x128_S2000x128_0_0 : ∀ a, (![0, 0] : Fin 2 → Nat) a + S2000x128.size a ≤ S2000x128.size a
  h_S2000x128 : 0 < S2000x128.numel
  reduces_S2000x128_S2000 : S2000x128.Reduces [1] S2000
  shapeCasts_S2000_S2000x1 : S2000.ShapeCasts S2000x1
  inb_S2000x1_S2000x1_0_0 : ∀ a, (![0, 0] : Fin 2 → Nat) a + S2000x1.size a ≤ S2000x1.size a
  h_S2000x1 : 0 < S2000x1.numel
  shapeCasts_S100000x1_S100000 : S100000x1.ShapeCasts S100000
  bcast_S_S100000x16 : S_.BroadcastsInDim S100000x16 (![] : Fin 0 → Fin S100000x16.rank)
  bcast_S100000x16_S100000x16x1_0_1 : S100000x16.BroadcastsInDim S100000x16x1 (![0, 1] : Fin 2 → Fin S100000x16x1.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S10000x128_S10000x128_0_0 : ∀ a, (![0, 0] : Fin 2 → Nat) a + S10000x128.size a ≤ S10000x128.size a
  h_S10000x128 : 0 < S10000x128.numel
  gather_S100000_S100000x16x1_S100000x16_n_0_n_n_0_2_1_wf : GatherDims.WF S100000 S100000x16x1 S100000x16 [] [0] [] [0] [] 2 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x1.size a ≤ S100000x1.size a
  hwx1_0 : ∀ i : grid1.Coords, EltTy.bits .f32 = 32 ∨ (Rect.block (s := S100000x1) S10000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)

variable [Facts₀]

def gather_S100000_S100000x16x1_S100000x16_n_0_n_n_0_2_1 : GatherDims S100000 S100000x16x1 S100000x16 where
  offsetDims := []
  collapsedSliceDims := [0]
  operandBatchingDims := []
  startIndicesBatchingDims := []
  startIndexMap := [0]
  indexVectorDim := 2
  sliceSizes := ![1]
  wf := gather_S100000_S100000x16x1_S100000x16_n_0_n_n_0_2_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2000x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v10) S10000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S10000x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x128 : Shape := ⟨2, ![100000, 128]⟩
abbrev S100000x16 : Shape := ⟨2, ![100000, 16]⟩
abbrev S_ : Shape := ⟨0, ![]⟩
abbrev S100000x16x1 : Shape := ⟨3, ![100000, 16, 1]⟩
abbrev S100000x16x128 : Shape := ⟨3, ![100000, 16, 128]⟩
abbrev S100000 : Shape := ⟨1, ![100000]⟩
abbrev S100000x1 : Shape := ⟨2, ![100000, 1]⟩

abbrev nBuf : Space → Nat
  | .hbm => 15
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x16, .i32⟩
  | .hbm, ⟨2, _⟩ => ⟨S_, .i32⟩
  | .hbm, ⟨3, _⟩ => ⟨S100000x16, .i32⟩
  | .hbm, ⟨4, _⟩ => ⟨S100000x16, .i1⟩
  | .hbm, ⟨5, _⟩ => ⟨S_, .i32⟩
  | .hbm, ⟨6, _⟩ => ⟨S100000x16, .i32⟩
  | .hbm, ⟨7, _⟩ => ⟨S100000x16, .i32⟩
  | .hbm, ⟨8, _⟩ => ⟨S100000x16, .i32⟩
  | .hbm, ⟨9, _⟩ => ⟨S100000x16x1, .i32⟩
  | .hbm, ⟨10, _⟩ => ⟨S100000x16x128, .f32⟩
  | .hbm, ⟨11, _⟩ => ⟨S_, .f32⟩
  | .hbm, ⟨12, _⟩ => ⟨S100000, .f32⟩
  | .hbm, ⟨13, _⟩ => ⟨S100000x1, .f32⟩
  | .hbm, ⟨14, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S_S100000x16 : S_.BroadcastsInDim S100000x16 (![] : Fin 0 → Fin S100000x16.rank)
  bcast_S100000x16_S100000x16x1_0_1 : S100000x16.BroadcastsInDim S100000x16x1 (![0, 1] : Fin 2 → Fin S100000x16x1.rank)
  reducesTo_S100000x16x128_S100000_d1_2 : S100000x16x128.ReducesTo [1, 2] S100000
  h_S_ : 0 < S_.numel
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  gather_S100000x128_S100000x16x1_S100000x16x128_2_0_n_n_0_2_1128_wf : GatherDims.WF S100000x128 S100000x16x1 S100000x16x128 [2] [0] [] [0] [] 2 ![1, 128]

variable [Facts₀]

def gather_S100000x128_S100000x16x1_S100000x16x128_2_0_n_n_0_2_1128 : GatherDims S100000x128 S100000x16x1 S100000x16x128 where
  offsetDims := [2]
  collapsedSliceDims := [0]
  operandBatchingDims := []
  startIndicesBatchingDims := []
  startIndexMap := [0]
  indexVectorDim := 2
  sliceSizes := ![1, 128]
  wf := gather_S100000x128_S100000x16x1_S100000x16x128_2_0_n_n_0_2_1128_wf

class Facts : Prop extends Facts₀ where

variable [Facts]
-- ==== Proof.KernelRun.lean ====
/-
  The idealized kernel's run, read once more with its RESULT in the post: every weakly fair execution of @main ends with
  the result array holding what the second launch's write-backs leave, and with the two argument arrays as launched.
  @main is a launch, a stretch of host operations, and a second launch; the contents of every buffer at each of the
  three boundaries are the fold the generated frame names, and the last of them is read here at the result array as
  well as at the arguments.
-/
import proofs.«120021_j65644280152900_2_alg».proof.Proof.Gen.KernelIdeal.Frame

set_option maxRecDepth 16384

noncomputable section

namespace Cert.KernelIdeal.RunOut

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array ends at the last boundary's
    contents, and the argument arrays end as launched. -/
theorem run_out : θ_run defs (onTc (τ := τ) (main (F := F))) ⟨m, fun _ => 0, ρ⟩ (fun r => ∀ c : Dev nD,
      r.2.mem ((c.tc : Thread nD τ).loc main_v11) = W3 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v11 (by decide)),
       (h c _ (mem_uc main_arg0 (by decide))).trans (W3_main_arg0 m ρ c),
       (h c _ (mem_uc main_arg1 (by decide))).trans (W3_main_arg1 m ρ c)⟩)

end Cert.KernelIdeal.RunOut

end
-- ==== Proof.HostStretch.lean ====
/-
  The stretch of host operations between the two launches, read: the column the second launch spreads is, as one term,
  the row-by-row maximum of the 16 entries gathered from the first launch's column (flattened to a vector) at the
  node's neighbour slots — negative slots shifted up by the table's length first, as the index arithmetic of the
  program does —, stood up as a column again.
-/
import proofs.«120021_j65644280152900_2_alg».proof.Proof.Gen.KernelIdeal.Frame
import Idealize.ShloMosaic.Lib.StableHlo.Run

noncomputable section

namespace Cert.KernelIdeal.HostStretch

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- The neighbour slots as the gathers take them: a negative slot shifted up by 100000, then a trailing unit axis. -/
def slots (x1 : (⟨S100000x16, .i32⟩ : BufTy).Contents (Elt F)) : (⟨S100000x16x1, .i32⟩ : BufTy).Contents (Elt F) :=
  broadcastInDim S100000x16x1 ![0, 1] bcast_S100000x16_S100000x16x1_0_1
    (select (cmpi .slt x1 (broadcastInDim S100000x16 ![] bcast_S_S100000x16 (constantI S_ 32 0#32)))
      (addi x1 (broadcastInDim S100000x16 ![] bcast_S_S100000x16 (constantI S_ 32 100000#32))) x1)

/-- The second launch's input column, from the first launch's output column `t0` and the slots array `x1`. -/
def column (t0 : (⟨S100000x1, .f32⟩ : BufTy).Contents (Elt F)) (x1 : (⟨S100000x16, .i32⟩ : BufTy).Contents (Elt F)) :
    (⟨S100000x1, .f32⟩ : BufTy).Contents (Elt F) :=
  broadcastInDim S100000x1 ![0] bcast_S100000_S100000x1_0
    (Host.reduce FloatOps.maximumf
      (Host.gather gather_S100000_S100000x16x1_S100000x16_n_0_n_n_0_2_1 (shapeCast S100000 t0 shapeCasts_S100000x1_S100000) (slots x1))
      (constant S_ .f32 0xFF800000#32) reducesTo_S100000x16_S100000_d1 h_S_)

/-- What the second launch finds in its input array: `column` of what the first launch left in its output array and of
    the slots argument as the stretch finds it. -/
theorem entry_column (c : Dev nD) :
    V2 m ρ c main_v10 = column (W1 m ρ c (Proc.devRef .tc main_v0)) (W1 m ρ c (Proc.devRef .tc main_arg1)) := by
  show StableHlo.after hostOps1 (W1 m ρ c) (Proc.devRef .tc main_v10) = _
  after_results
  rfl

end Cert.KernelIdeal.HostStretch

end
-- ==== Proof.Region0.lean ====
/-
  The first launch, from blocks to the array: the grid has fifty points; point `t` loads rows `2000·t … 2000·t + 1999` of
  the `[100000, 128]` feature table, takes each row's maximum over its 128 lanes (folded from the reduction's initial
  literal), and stores the 2000 maxima as the same rows of the `[100000, 1]` column. The fifty blocks tile the column, so
  after the launch row `v` of the column is the maximum of row `v` of the table as the launch found it.
-/
import proofs.«120021_j65644280152900_2_alg».proof.Proof.Gen.KernelIdeal.Frame
import Idealize.ShloMosaic.Lib.Pipeline.Value
import Idealize.ShloMosaic.Lib.ValueIdx
import Idealize.ShloMosaic.PureOps.Ideal.Laws

noncomputable section
namespace Cert.KernelIdeal.Blocks
open Idealize.ShloMosaic Idealize.ShloMosaic.TcCoe Idealize.SL.Sem Idealize.ShloMosaic.ValueIdx
open Cert.KernelIdeal Cert.KernelIdeal.Gen

theorem hz0 : (![0, 0] : Fin 2 → Nat) = fun _ => 0 := funext fun a => by fin_cases a <;> rfl

/-- A vector of length a kept as an [a,1] column reads, at (i, u), the vector at i: the two row-major positions are
    i and i * 1 + 0. -/
theorem shapeCast_col0 {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The maximum over the lane axis of a [2000,128] block, read at row p: the fold of max over the 128 lanes of row p,
    from the reduction's initial value (the index the reduction inserts lane f into row p at is (p, f)). -/
theorem rowmax0 (x0 : FVec Ideal S2000x128 .f32) (h : S2000x128.Reduces [1] S2000) (hφ : FKind.Formats .f32)
    (hacc : (0xFF800000#32 : BitVec 32) = FKind.maximumf.neutral .f32 hφ) (p : Fin 2000) :
    multiReduction .maximumf [1] S2000 x0 0xFF800000#32 h hφ hacc (ix1 p)
      = (Finset.univ : Finset (Fin 128)).fold max (Ideal.ofBits .f32 0xFF800000#32) (fun f => x0 (ix2 p f)) := by
  refine (Ideal.multiReduction_maximumf_single x0 0xFF800000#32 h hφ hacc (ix1 p)).trans ?_
  show (Finset.univ : Finset (Fin 128)).fold max (Ideal.ofBits .f32 0xFF800000#32)
      (fun f => x0 (h.lift (ix1 p) f)) = _
  congr 1
  funext f
  congr 1
  funext a
  match a with
  | ⟨0, _⟩ => rfl
  | ⟨1, _⟩ => rfl

/-- The first region's payload at an entry: row p of the stored [2000,1] column is the maximum over the 128 lanes of
    row p of the loaded [2000,128] block, folded from the reduction's initial value. -/
theorem pay0_apply (x0 : Vec Ideal S2000x128 .f32) (p : Fin 2000) :
    k0_pay1 (F := Ideal) x0 (ix2 p (0 : Fin 1))
      = (Finset.univ : Finset (Fin 128)).fold max (Ideal.ofBits .f32 0xFF800000#32) (fun f => x0 (ix2 p f)) := by
  unfold k0_pay1
  refine (shapeCast_col0 _ shapeCasts_S2000_S2000x1 p 0).trans ?_
  exact rowmax0 x0 _ _ _ p

/-- The printed index maps, decided over the fifty points: the input window and the output window sit on the same row
    block, both at lane block 0, and the row block is one of the fifty. -/
theorem idx_facts0 : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) ≤ 49 :=
  (by decide +kernel : ∀ t : Fin grid0.N, _)

/-- Every one of the fifty row blocks is some point's. -/
theorem idx_onto0 : ∀ q : Fin 50, ∃ t : Fin cfg0.N, win0_1.index t = ![q.val, 0] :=
  (by decide +kernel : ∀ q : Fin 50, ∃ t : Fin grid0.N, win0_1.index t = ![q.val, 0])

/-- What the [100000,1] array ends holding: row v is the maximum over the 128 lanes of row v of the [100000,128]
    array the region finds, folded from the reduction's initial value. -/
abbrev G0 (V : (c : Dev nD) → (b : Ref sig .tc) → Buf (Elt Ideal) ((c : Thread nD τ).loc b)) (c : Dev nD) :
    S100000x1.Idx → Elt Ideal .f32 :=
  fun i => (Finset.univ : Finset (Fin 128)).fold max (Ideal.ofBits .f32 0xFF800000#32)
    (fun f => V c main_arg0 (ix2 (⟨(i 0).val, idx2_lt0 i⟩ : Fin 100000) f))

/-- What point t writes back is block t of that array: row p of the block is row (row block) * 2000 + p of the
    array, and the input block's entry (p, f) is the input array's entry in that same row, lane f. -/
theorem flushed0_eq (V : (c : Dev nD) → (b : Ref sig .tc) → Buf (Elt Ideal) ((c : Thread nD τ).loc b)) (c : Dev nD) (t : Fin cfg0.N) :
    (dat0 (F := Ideal) V c).flushed 1 t = ((cfg0.win 1).blk t).view.read (Elt Ideal) (G0 V c) := by
  show (cfg0.win 1).cut (grid0.coords t) ((dat0 (F := Ideal) V c).after 1 t) = _
  rw [after0_1]
  unfold out0_1
  rw [View.canon_unit_zero hz0]
  simp only [View.ld_unit_zero (S := S2000x128) hz0]
  obtain ⟨e0, e1, e2, e3⟩ := idx_facts0 t
  funext j
  obtain ⟨p, q, rfl⟩ : ∃ (p : Fin 2000) (q : Fin 1), j = ix2 p q := ⟨j 0, j 1, eq_ix2 j⟩
  obtain rfl : q = 0 := Subsingleton.elim _ _
  refine (pay0_apply (iblk0 V c 0 t) p).trans ?_
  show (Finset.univ : Finset (Fin 128)).fold max (Ideal.ofBits .f32 0xFF800000#32)
      (fun f => V c main_arg0 (((cfg0.win 0).blk t).view.emb (ix2 p f)))
    = (Finset.univ : Finset (Fin 128)).fold max (Ideal.ofBits .f32 0xFF800000#32)
      (fun f => V c main_arg0 (ix2 (⟨((((cfg0.win 1).blk t).view.emb (ix2 p (0 : Fin 1))) 0).val, _⟩ : Fin 100000) f))
  congr 1
  funext f
  congr 1
  funext a; apply Fin.ext
  match a with
  | ⟨0, _⟩ =>
    show win0_0.index t (0 : Fin 2) * 2000 + 1 * p.val = win0_1.index t (0 : Fin 2) * 2000 + 1 * p.val
    omega
  | ⟨1, _⟩ =>
    show win0_0.index t (1 : Fin 2) * 128 + 1 * f.val = f.val
    omega

/-- A row of the [100000,1] array is in point t's block iff each coordinate is in the block's range on its axis. -/
theorem mem_blk0 (t : Fin cfg0.N) (i : S100000x1.Idx) :
    i ∈ ((cfg0.win 1).blk t).view.set ↔ ∀ a : Fin 2, win0_1.index t a * S2000x1.size a ≤ (i a).val ∧ (i a).val < win0_1.index t a * S2000x1.size a + S2000x1.size a := by
  show i ∈ ((View.whole main_v0).slice (win0_1.rect t)).set ↔ _
  rw [View.set_slice_whole, Rect.mem_set_unit]
  exact Iff.rfl

/-- The fifty blocks of 2000 rows fill the array: row r is in the block of the point whose row block is r / 2000. -/
theorem cover0 (i : S100000x1.Idx) :
    ∃ t : Fin cfg0.N, (cfg0.win 1).flush t = true ∧ i ∈ ((cfg0.win 1).blk t).view.set := by
  have hi0 : (i 0).val < 100000 := idx2_lt0 i
  have hi1 : (i 1).val < 1 := idx2_lt1 i
  obtain ⟨t, ht⟩ := idx_onto0 ⟨(i 0).val / 2000, by omega⟩
  have q0 : win0_1.index t (0 : Fin 2) = (i 0).val / 2000 := congrFun ht 0
  have q1 : win0_1.index t (1 : Fin 2) = 0 := congrFun ht 1
  refine ⟨t, flush0_1 t, ?_⟩
  rw [mem_blk0]
  intro a
  match a with
  | ⟨0, _⟩ =>
    show win0_1.index t (0 : Fin 2) * 2000 ≤ (i 0).val ∧ (i 0).val < win0_1.index t (0 : Fin 2) * 2000 + 2000
    omega
  | ⟨1, _⟩ =>
    show win0_1.index t (1 : Fin 2) * 1 ≤ (i 1).val ∧ (i 1).val < win0_1.index t (1 : Fin 2) * 1 + 1
    omega

/-- After the first region the [100000,1] array holds, in row v, the maximum over the 128 lanes of row v of the
    [100000,128] array as the region found it, folded from the reduction's initial value. -/
theorem final0 (V : (c : Dev nD) → (b : Ref sig .tc) → Buf (Elt Ideal) ((c : Thread nD τ).loc b)) (c : Dev nD) :
    (dat0 (F := Ideal) V c).arrAt 1 cfg0.N
      = fun i : S100000x1.Idx => (Finset.univ : Finset (Fin 128)).fold max (Ideal.ofBits .f32 0xFF800000#32)
          (fun f => V c main_arg0 (ix2 (⟨(i 0).val, idx2_lt0 i⟩ : Fin 100000) f)) :=
  (dat0 (F := Ideal) V c).arrAt_eq_of_cover 1 (G0 V c) (fun t _ => flushed0_eq V c t) cover0

end Cert.KernelIdeal.Blocks
end
-- ==== Proof.Region1.lean ====
/-
  The second launch, from blocks to the array: the grid has ten points; point `t` loads rows `10000·t … 10000·t + 9999`
  of the `[100000, 1]` column and stores them, each copied along the 128 lanes, as the same rows of the `[100000, 128]`
  result. The ten blocks tile the result, so after the launch entry `(n, f)` of the result is entry `(n, 0)` of the column
  as the launch found it.
-/
import proofs.«120021_j65644280152900_2_alg».proof.Proof.Gen.KernelIdeal.Frame
import Idealize.ShloMosaic.Lib.Pipeline.Value
import Idealize.ShloMosaic.Lib.ValueIdx

noncomputable section
namespace Cert.KernelIdeal.Blocks
open Idealize.ShloMosaic Idealize.ShloMosaic.TcCoe Idealize.SL.Sem Idealize.ShloMosaic.ValueIdx
open Cert.KernelIdeal Cert.KernelIdeal.Gen

variable {F : FTy → Type} [FloatOps F]

theorem hz1 : (![0, 0] : Fin 2 → Nat) = fun _ => 0 := funext fun a => by fin_cases a <;> rfl

/-- The second region's payload at an entry: the two shape casts keep the [10000,1] column as it is and the broadcast
    spreads it over the 128 lanes, so entry (p, q) of the stored block is entry (p, 0) of the loaded column. -/
theorem pay1_apply (x0 : Vec F S10000x1 .f32) (p : Fin 10000) (q : Fin 128) :
    k1_pay1 x0 (ix2 p q) = x0 (ix2 p (0 : Fin 1)) := by
  unfold k1_pay1
  simp only [shapeCast_self]
  refine broadcastTo_apply x0 _ (ix2 p q) (ix2 p (0 : Fin 1)) fun a => ?_
  match a with
  | ⟨0, _⟩ => rfl
  | ⟨1, _⟩ => rfl

/-- The printed index maps, decided over the ten points: the column window and the output window sit on the same row
    block, both at lane block 0, and the row block is one of the ten. -/
theorem idx_facts1 : ∀ t : Fin cfg1.N, win1_0.index t (0 : Fin 2) = win1_1.index t (0 : Fin 2)
    ∧ win1_0.index t (1 : Fin 2) = 0 ∧ win1_1.index t (1 : Fin 2) = 0 ∧ win1_1.index t (0 : Fin 2) ≤ 9 :=
  (by decide +kernel : ∀ t : Fin grid1.N, _)

/-- Every one of the ten row blocks is some point's. -/
theorem idx_onto1 : ∀ q : Fin 10, ∃ t : Fin cfg1.N, win1_1.index t = ![q.val, 0] :=
  (by decide +kernel : ∀ q : Fin 10, ∃ t : Fin grid1.N, win1_1.index t = ![q.val, 0])

/-- What the [100000,128] array ends holding: entry (n, f) is entry (n, 0) of the [100000,1] array the region finds. -/
abbrev G1 (V : (c : Dev nD) → (b : Ref sig .tc) → Buf (Elt F) ((c : Thread nD τ).loc b)) (c : Dev nD) :
    S100000x128.Idx → Elt F .f32 :=
  fun i => V c main_v10 (ix2 (⟨(i 0).val, idx2_lt0 i⟩ : Fin 100000) (0 : Fin 1))

/-- What point t writes back is block t of that array. -/
theorem flushed1_eq (V : (c : Dev nD) → (b : Ref sig .tc) → Buf (Elt F) ((c : Thread nD τ).loc b)) (c : Dev nD) (t : Fin cfg1.N) :
    (dat1 V c).flushed 1 t = ((cfg1.win 1).blk t).view.read (Elt F) (G1 V c) := by
  show (cfg1.win 1).cut (grid1.coords t) ((dat1 V c).after 1 t) = _
  rw [after1_1]
  unfold out1_1
  rw [View.canon_unit_zero hz1]
  simp only [View.ld_unit_zero (S := S10000x1) hz1]
  obtain ⟨e0, e1, e2, e3⟩ := idx_facts1 t
  funext j
  obtain ⟨p, q, rfl⟩ : ∃ (p : Fin 10000) (q : Fin 128), j = ix2 p q := ⟨j 0, j 1, eq_ix2 j⟩
  refine (pay1_apply (iblk1 V c 0 t) p q).trans ?_
  show V c main_v10 (((cfg1.win 0).blk t).view.emb (ix2 p (0 : Fin 1)))
    = V c main_v10 (ix2 (⟨((((cfg1.win 1).blk t).view.emb (ix2 p q)) 0).val, _⟩ : Fin 100000) (0 : Fin 1))
  congr 1
  funext a; apply Fin.ext
  match a with
  | ⟨0, _⟩ =>
    show win1_0.index t (0 : Fin 2) * 10000 + 1 * p.val = win1_1.index t (0 : Fin 2) * 10000 + 1 * p.val
    omega
  | ⟨1, _⟩ =>
    show win1_0.index t (1 : Fin 2) * 1 + 1 * 0 = 0
    omega

/-- An entry of the [100000,128] array is in point t's block iff each coordinate is in the block's range on its axis. -/
theorem mem_blk1 (t : Fin cfg1.N) (i : S100000x128.Idx) :
    i ∈ ((cfg1.win 1).blk t).view.set ↔ ∀ a : Fin 2, win1_1.index t a * S10000x128.size a ≤ (i a).val ∧ (i a).val < win1_1.index t a * S10000x128.size a + S10000x128.size a := by
  show i ∈ ((View.whole main_v11).slice (win1_1.rect t)).set ↔ _
  rw [View.set_slice_whole, Rect.mem_set_unit]
  exact Iff.rfl

/-- The ten blocks of 10000 rows fill the array: row r is in the block of the point whose row block is r / 10000. -/
theorem cover1 (i : S100000x128.Idx) :
    ∃ t : Fin cfg1.N, (cfg1.win 1).flush t = true ∧ i ∈ ((cfg1.win 1).blk t).view.set := by
  have hi0 : (i 0).val < 100000 := idx2_lt0 i
  have hi1 : (i 1).val < 128 := idx2_lt1 i
  obtain ⟨t, ht⟩ := idx_onto1 ⟨(i 0).val / 10000, by omega⟩
  have q0 : win1_1.index t (0 : Fin 2) = (i 0).val / 10000 := congrFun ht 0
  have q1 : win1_1.index t (1 : Fin 2) = 0 := congrFun ht 1
  refine ⟨t, flush1_1 t, ?_⟩
  rw [mem_blk1]
  intro a
  match a with
  | ⟨0, _⟩ =>
    show win1_1.index t (0 : Fin 2) * 10000 ≤ (i 0).val ∧ (i 0).val < win1_1.index t (0 : Fin 2) * 10000 + 10000
    omega
  | ⟨1, _⟩ =>
    show win1_1.index t (1 : Fin 2) * 128 ≤ (i 1).val ∧ (i 1).val < win1_1.index t (1 : Fin 2) * 128 + 128
    omega

/-- After the second region the [100000,128] array holds in entry (n, f) the [100000,1] array's entry (n, 0), as the
    region found it. -/
theorem final1 (V : (c : Dev nD) → (b : Ref sig .tc) → Buf (Elt F) ((c : Thread nD τ).loc b)) (c : Dev nD) :
    (dat1 V c).arrAt 1 cfg1.N
      = fun i : S100000x128.Idx => V c main_v10 (ix2 (⟨(i 0).val, idx2_lt0 i⟩ : Fin 100000) (0 : Fin 1)) :=
  (dat1 V c).arrAt_eq_of_cover 1 (G1 V c) (fun t _ => flushed1_eq V c t) cover1

end Cert.KernelIdeal.Blocks
end
-- ==== Proof.LibTakeRows.lean ====
/-
  `stablehlo.gather` of the ROWS of a matrix at a rank-2 array of row numbers, read at an index.

  What `x[idx]` of a matrix `x : [N, K]` at an integer array `idx : [R, C]` lowers to: a gather with offset_dims `[2]`,
  collapsed_slice_dims `[0]`, start_index_map `[0]`, slice_sizes `[1, K]` and index_vector_dim 2 over the indices as
  `[R, C, 1]`. Result element `(t, j, f)` is `x` at row `idx[t, j, 0]` — read as a signed integer and clamped into
  `[0, N − 1]`, as every start index of a gather is — and column `f`. (The flat-vector case, operand `[N]`, is the
  library's `gather_take_apply`; this is the same statement one axis up.) Imports the Idealize library only.
-/
import Idealize.ShloMosaic.Lib.ValueIdx

noncomputable section

namespace Cert.Lib.TakeRows

open Idealize.ShloMosaic Idealize.ShloMosaic.ValueIdx

variable {α : Type}

/-- The dimension numbers of a row gather: operand `[N, K]`, start indices `[R, C, 1]`, result `[R, C, K]`; their
    conditions `wf` are decided on a program's literal shapes. -/
abbrev takeRowsDims (N K R C : Nat)
    (wf : GatherDims.WF ⟨2, ![N, K]⟩ ⟨3, ![R, C, 1]⟩ ⟨3, ![R, C, K]⟩ [2] [0] [] [0] [] 2 ![1, K]) :
    GatherDims ⟨2, ![N, K]⟩ ⟨3, ![R, C, 1]⟩ ⟨3, ![R, C, K]⟩ where
  offsetDims := [2]
  collapsedSliceDims := [0]
  operandBatchingDims := []
  startIndicesBatchingDims := []
  startIndexMap := [0]
  indexVectorDim := 2
  sliceSizes := ![1, K]
  wf := wf

/-- THE ROW GATHER READ AT `(t, j, f)`: the operand at row `idx[t, j, 0]`, read signed and clamped into `[0, N − 1]`, and
    column `f`. -/
theorem gather_rows_apply {N K R C w : Nat} (hN : 0 < N)
    (wf : GatherDims.WF ⟨2, ![N, K]⟩ ⟨3, ![R, C, 1]⟩ ⟨3, ![R, C, K]⟩ [2] [0] [] [0] [] 2 ![1, K])
    (x : (⟨2, ![N, K]⟩ : Shape).Idx → α) (idx : IVec ⟨3, ![R, C, 1]⟩ w) (t : Fin R) (j : Fin C) (f : Fin K) :
    Host.gather (takeRowsDims N K R C wf) x idx (ix3 t j f)
      = x (ix2 ⟨min (idx (ix3 t j (0 : Fin 1))).toInt.toNat (N - 1), by omega⟩ f) := by
  unfold Host.gather
  congr 1
  funext a
  refine Fin.ext ?_
  match a with
  | ⟨0, _⟩ =>
    show (takeRowsDims N K R C wf).start (ix3 t j f) idx 0 + (takeRowsDims N K R C wf).batchCoord (ix3 t j f) 0
        + (takeRowsDims N K R C wf).offCoord (ix3 t j f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRowsDims N K R C wf).startIndexMap from List.mem_singleton.mpr rfl)]
    have hsi : (takeRowsDims N K R C wf).siIdx (ix3 t j f) ⟨List.idxOf (0 : Fin 2) (takeRowsDims N K R C wf).startIndexMap,
        List.idxOf_lt_length_iff.2 (List.mem_singleton.mpr rfl)⟩ = ix3 t j (0 : Fin 1) := by
      funext b; refine Fin.ext ?_
      match b with
      | ⟨0, _⟩ => rfl
      | ⟨1, _⟩ => rfl
      | ⟨2, _⟩ => rfl
    rw [hsi]
    rfl
  | ⟨1, _⟩ =>
    show (takeRowsDims N K R C wf).start (ix3 t j f) idx 1 + (takeRowsDims N K R C wf).batchCoord (ix3 t j f) 1
        + (takeRowsDims N K R C wf).offCoord (ix3 t j f) 1 = f.val
    rw [GatherDims.batchCoord_eq_zero _ _ _ List.not_mem_nil]
    unfold GatherDims.start
    rw [dif_neg (show (1 : Fin 2) ∉ (takeRowsDims N K R C wf).startIndexMap from
      fun h => Nat.one_ne_zero (congrArg Fin.val (List.mem_singleton.mp h)))]
    simp only [Nat.add_zero, Nat.zero_add]
    rfl

end Cert.Lib.TakeRows

end
-- ==== Proof.NodeMax.lean ====
/-
  The mathematics of the claim, with no program in sight.

  A node's result is the maximum, over its 16 neighbour slots `s` and the 128 lanes `f`, of the feature table at row
  `row J n s` (the slot's start index read signed and clamped into the table) and lane `f`, folded from the literal the
  reductions start at. One side takes that maximum in one sweep over the gathered `[16, 128]` rows; the other first takes
  each table row's maximum over its lanes, gathers 16 of those row maxima, and takes their maximum. A maximum is
  characterised by its upper bounds — `fold max b g ≤ c` iff `b ≤ c` and every `g i ≤ c` — and the two sides have the same
  upper bounds, so they are equal. Only the order of `max` is used: no entry needs to be finite.
-/
import proofs.«120021_j65644280152900_2_alg».proof.Proof.LibTakeRows
import Idealize.ShloMosaic.PureOps.Ideal.Laws
import Idealize.ShloMosaic.Lib.ValueIdx

noncomputable section

namespace Cert.NodeMax

open Idealize.ShloMosaic Idealize.ShloMosaic.ValueIdx Cert.Lib.TakeRows

/-- The table row neighbour slot `s` of node `n` reads: the start index as a signed integer, clamped into `[0, 99999]`. -/
def row (J : IVec ⟨3, ![100000, 16, 1]⟩ 32) (n : Fin 100000) (s : Fin 16) : Fin 100000 :=
  ⟨min (J (ix3 n s (0 : Fin 1))).toInt.toNat (100000 - 1), by omega⟩

/-- The start-indices entry the flat gather reads for result entry `(n, s)` is entry `(n, s, 0)`. -/
theorem takeIdx_ix2 (n : Fin 100000) (s : Fin 16) : takeIdx (ix2 n s) = ix3 n s (0 : Fin 1) := by
  funext a
  match a with
  | ⟨0, _⟩ => rfl
  | ⟨1, _⟩ => rfl
  | ⟨2, _⟩ => rfl

/-- The upper bounds of a maximum folded from `b`. -/
theorem fold_max_le_iff {ι : Type} (S : Finset ι) (b : EReal) (g : ι → EReal) (c : EReal) :
    S.fold (FloatOps.maximumf (F := Ideal) (φ := .f32)) b g ≤ c ↔ b ≤ c ∧ ∀ i ∈ S, g i ≤ c :=
  Finset.fold_max_le c

/-- A rank-2 index drops to row `n` exactly when its first coordinate is `n`. -/
theorem drop2_eq_iff (h : (⟨2, ![100000, 16]⟩ : Shape).ReducesTo [1] ⟨1, ![100000]⟩)
    (i : (⟨2, ![100000, 16]⟩ : Shape).Idx) (n : Fin 100000) : h.drop i = ix1 n ↔ (i 0).val = n.val := by
  constructor
  · intro e
    have := congrArg (fun j : (⟨1, ![100000]⟩ : Shape).Idx => (j 0).val) e
    simpa [Shape.ReducesTo.drop_apply_val_of_eq h i 0 0] using this
  · intro e
    funext b
    obtain rfl : b = 0 := Subsingleton.elim _ _
    exact Fin.ext ((Shape.ReducesTo.drop_apply_val_of_eq h i 0 0).trans e)

/-- A rank-3 index drops (over its two trailing axes) to row `n` exactly when its first coordinate is `n`. -/
theorem drop3_eq_iff (h : (⟨3, ![100000, 16, 128]⟩ : Shape).ReducesTo [1, 2] ⟨1, ![100000]⟩)
    (i : (⟨3, ![100000, 16, 128]⟩ : Shape).Idx) (n : Fin 100000) : h.drop i = ix1 n ↔ (i 0).val = n.val := by
  constructor
  · intro e
    have := congrArg (fun j : (⟨1, ![100000]⟩ : Shape).Idx => (j 0).val) e
    simpa [Shape.ReducesTo.drop_apply_val_of_eq h i 0 0] using this
  · intro e
    funext b
    obtain rfl : b = 0 := Subsingleton.elim _ _
    exact Fin.ext ((Shape.ReducesTo.drop_apply_val_of_eq h i 0 0).trans e)

/-- THE TWO-STAGE SIDE's upper bounds: the maximum over the 16 gathered entries of a table `tbl`. -/
theorem take_max_le_iff
    (wf : GatherDims.WF ⟨1, ![100000]⟩ ⟨3, ![100000, 16, 1]⟩ ⟨2, ![100000, 16]⟩ [] [0] [] [0] [] 2 ![1])
    (h : (⟨2, ![100000, 16]⟩ : Shape).ReducesTo [1] ⟨1, ![100000]⟩) (hu : 0 < (⟨0, ![]⟩ : Shape).numel)
    (tbl : (⟨1, ![100000]⟩ : Shape).Idx → EReal) (J : IVec ⟨3, ![100000, 16, 1]⟩ 32) (w : BitVec 32)
    (n : Fin 100000) (c : EReal) :
    Host.reduce (FloatOps.maximumf (F := Ideal) (φ := .f32)) (Host.gather (takeDims 100000 100000 16 wf) tbl J)
        (constant (F := Ideal) ⟨0, ![]⟩ .f32 w) h hu (ix1 n) ≤ c
      ↔ Ideal.ofBits .f32 w ≤ c ∧ ∀ s : Fin 16, tbl (ix1 (row J n s)) ≤ c := by
  rw [Host.reduce_eq_fold, fold_max_le_iff]
  refine and_congr Iff.rfl ⟨fun H s => ?_, fun H i hi => ?_⟩
  · have := H (ix2 n s) (Finset.mem_filter.2 ⟨Finset.mem_univ _, (drop2_eq_iff h _ n).2 rfl⟩)
    rw [gather_take_apply (by omega) wf tbl J (ix2 n s)] at this
    simp only [takeIdx_ix2] at this
    exact this
  · obtain ⟨a, s, rfl⟩ : ∃ (a : Fin 100000) (s : Fin 16), i = ix2 a s := ⟨i 0, i 1, eq_ix2 i⟩
    have ha : a = n := Fin.ext ((drop2_eq_iff h _ n).1 (Finset.mem_filter.1 hi).2)
    subst ha
    rw [gather_take_apply (by omega) wf tbl J (ix2 a s)]
    simp only [takeIdx_ix2]
    exact H s

/-- THE ONE-SWEEP SIDE's upper bounds: the maximum over the gathered `[16, 128]` rows of the feature table `x`. -/
theorem rows_max_le_iff
    (wf : GatherDims.WF ⟨2, ![100000, 128]⟩ ⟨3, ![100000, 16, 1]⟩ ⟨3, ![100000, 16, 128]⟩ [2] [0] [] [0] [] 2 ![1, 128])
    (h : (⟨3, ![100000, 16, 128]⟩ : Shape).ReducesTo [1, 2] ⟨1, ![100000]⟩) (hu : 0 < (⟨0, ![]⟩ : Shape).numel)
    (x : (⟨2, ![100000, 128]⟩ : Shape).Idx → EReal) (J : IVec ⟨3, ![100000, 16, 1]⟩ 32) (w : BitVec 32)
    (n : Fin 100000) (c : EReal) :
    Host.reduce (FloatOps.maximumf (F := Ideal) (φ := .f32)) (Host.gather (takeRowsDims 100000 128 100000 16 wf) x J)
        (constant (F := Ideal) ⟨0, ![]⟩ .f32 w) h hu (ix1 n) ≤ c
      ↔ Ideal.ofBits .f32 w ≤ c ∧ ∀ (s : Fin 16) (f : Fin 128), x (ix2 (row J n s) f) ≤ c := by
  rw [Host.reduce_eq_fold, fold_max_le_iff]
  refine and_congr Iff.rfl ⟨fun H s f => ?_, fun H i hi => ?_⟩
  · have := H (ix3 n s f) (Finset.mem_filter.2 ⟨Finset.mem_univ _, (drop3_eq_iff h _ n).2 rfl⟩)
    rw [gather_rows_apply (by omega) wf x J n s f] at this
    exact this
  · obtain ⟨a, s, f, rfl⟩ : ∃ (a : Fin 100000) (s : Fin 16) (f : Fin 128), i = ix3 a s f := ⟨i 0, i 1, i 2, eq_ix3 i⟩
    have ha : a = n := Fin.ext ((drop3_eq_iff h _ n).1 (Finset.mem_filter.1 hi).2)
    subst ha
    rw [gather_rows_apply (by omega) wf x J a s f]
    exact H s f

/-- THE LAW: when the table holds each row's maximum over its lanes, folded from the same literal, the maximum of the
    16 gathered table entries is the maximum of the gathered rows. -/
theorem take_max_eq_rows_max
    (wf1 : GatherDims.WF ⟨1, ![100000]⟩ ⟨3, ![100000, 16, 1]⟩ ⟨2, ![100000, 16]⟩ [] [0] [] [0] [] 2 ![1])
    (h1 : (⟨2, ![100000, 16]⟩ : Shape).ReducesTo [1] ⟨1, ![100000]⟩)
    (wf2 : GatherDims.WF ⟨2, ![100000, 128]⟩ ⟨3, ![100000, 16, 1]⟩ ⟨3, ![100000, 16, 128]⟩ [2] [0] [] [0] [] 2 ![1, 128])
    (h2 : (⟨3, ![100000, 16, 128]⟩ : Shape).ReducesTo [1, 2] ⟨1, ![100000]⟩)
    (hu hu' : 0 < (⟨0, ![]⟩ : Shape).numel)
    (x : (⟨2, ![100000, 128]⟩ : Shape).Idx → EReal) (tbl : (⟨1, ![100000]⟩ : Shape).Idx → EReal)
    (J : IVec ⟨3, ![100000, 16, 1]⟩ 32) (w : BitVec 32)
    (htbl : ∀ v : Fin 100000, tbl (ix1 v)
      = (Finset.univ : Finset (Fin 128)).fold (FloatOps.maximumf (F := Ideal) (φ := .f32)) (Ideal.ofBits .f32 w) (fun f => x (ix2 v f)))
    (n : Fin 100000) :
    Host.reduce (FloatOps.maximumf (F := Ideal) (φ := .f32)) (Host.gather (takeDims 100000 100000 16 wf1) tbl J)
        (constant (F := Ideal) ⟨0, ![]⟩ .f32 w) h1 hu (ix1 n)
      = Host.reduce (FloatOps.maximumf (F := Ideal) (φ := .f32)) (Host.gather (takeRowsDims 100000 128 100000 16 wf2) x J)
        (constant (F := Ideal) ⟨0, ![]⟩ .f32 w) h2 hu' (ix1 n) := by
  refine eq_of_forall_ge_iff fun c => ?_
  rw [take_max_le_iff, rows_max_le_iff]
  constructor
  · rintro ⟨hb, H⟩
    refine ⟨hb, fun s f => ?_⟩
    have := H s
    rw [htbl, fold_max_le_iff] at this
    exact this.2 f (Finset.mem_univ _)
  · rintro ⟨hb, H⟩
    refine ⟨hb, fun s => ?_⟩
    rw [htbl, fold_max_le_iff]
    exact ⟨hb, fun f _ => H s f⟩

end Cert.NodeMax

end
-- ==== Proof.KernelValue.lean ====
/-
  What the idealized kernel's result array holds, entry by entry.

  The first launch leaves a column: row `v` holds the maximum of row `v` of the feature table over its 128 lanes (its
  blocks of 2000 rows tile the table). The host stretch flattens the column, gathers 16 of its entries per node and takes
  their maximum. The second launch spreads that per-node value over the 128 lanes of the result (its blocks of 10000
  rows tile the result). So entry `(n, f)` of the result is the maximum over node `n`'s 16 slots of the row maxima — which
  is the maximum over the gathered `[16, 128]` rows themselves, the form the reference computes.
-/
import proofs.«120021_j65644280152900_2_alg».proof.Proof.KernelRun
import proofs.«120021_j65644280152900_2_alg».proof.Proof.HostStretch
import proofs.«120021_j65644280152900_2_alg».proof.Proof.Region0
import proofs.«120021_j65644280152900_2_alg».proof.Proof.Region1
import proofs.«120021_j65644280152900_2_alg».proof.Proof.NodeMax
import Idealize.ShloMosaic.Lib.Pipeline.Value

noncomputable section

namespace Cert.KernelIdeal.KernelValue

open Idealize.ShloMosaic Idealize.ShloMosaic.TcCoe Idealize.SL.Sem Idealize.ShloMosaic.ValueIdx
open Cert.KernelIdeal Cert.KernelIdeal.Gen Cert.KernelIdeal.HostStretch Cert.Lib.TakeRows

variable (m : (ℓ : Loc nD τ sig) → Buf (Elt Ideal) ℓ) (ρ : Dev nD → PrngReg)

/-- The table the host stretch gathers from — the first launch's column, flattened — holds in entry `v` the maximum of
    row `v` of the feature table over its lanes. -/
theorem table_apply (c : Dev nD) (v : Fin 100000) :
    shapeCast S100000 (W1 m ρ c (Proc.devRef .tc main_v0)) shapeCasts_S100000x1_S100000 (ix1 v)
      = (Finset.univ : Finset (Fin 128)).fold (FloatOps.maximumf (F := Ideal) (φ := .f32)) (Ideal.ofBits .f32 0xFF800000#32)
          (fun f => m ((c.tc : Thread nD τ).loc main_arg0) (ix2 v f)) := by
  rw [shapeCast_apply _ _ (ix1 v) (ix2 v (0 : Fin 1))
    (by rw [Shape.rowMajor_val_two, Shape.rowMajor_val_one]; show v.val * 1 + 0 = v.val; omega)]
  have e1 : W1 m ρ c (Proc.devRef .tc main_v0) = (dat0 (V0 m ρ) c).arrAt 1 cfg0.N := W1_arr m ρ c 1
  rw [e1, Blocks.final0 (V0 m ρ) c]
  rfl

/-- The slots argument reaches the host stretch as launched: the first launch does not write it. -/
theorem slots_kept (c : Dev nD) : W1 m ρ c (Proc.devRef .tc main_arg1) = m ((c.tc : Thread nD τ).loc main_arg1) :=
  (W1_of_ne m ρ c main_arg1 (by decide)).trans rfl

/-- ENTRY `(n, f)` OF THE RESULT: the maximum over the rows of the feature table gathered at node `n`'s slots. -/
theorem result_apply
    (wf2 : GatherDims.WF ⟨2, ![100000, 128]⟩ ⟨3, ![100000, 16, 1]⟩ ⟨3, ![100000, 16, 128]⟩ [2] [0] [] [0] [] 2 ![1, 128])
    (h2 : (⟨3, ![100000, 16, 128]⟩ : Shape).ReducesTo [1, 2] ⟨1, ![100000]⟩) (hu : 0 < (⟨0, ![]⟩ : Shape).numel)
    (c : Dev nD) (i : S100000x128.Idx) :
    W3 m ρ c (Proc.devRef .tc main_v11) i
      = Host.reduce (FloatOps.maximumf (F := Ideal) (φ := .f32))
          (Host.gather (takeRowsDims 100000 128 100000 16 wf2) (m ((c.tc : Thread nD τ).loc main_arg0))
            (slots (F := Ideal) (m ((c.tc : Thread nD τ).loc main_arg1))))
          (constant (F := Ideal) ⟨0, ![]⟩ .f32 0xFF800000#32) h2 hu (ix1 (⟨(i 0).val, idx2_lt0 i⟩ : Fin 100000)) := by
  have e3 : W3 m ρ c (Proc.devRef .tc main_v11) = (dat1 (V2 m ρ) c).arrAt 1 cfg1.N := W3_arr m ρ c 1
  rw [e3, Blocks.final1 (V2 m ρ) c]
  show V2 m ρ c main_v10 (ix2 (⟨(i 0).val, idx2_lt0 i⟩ : Fin 100000) (0 : Fin 1)) = _
  rw [entry_column, slots_kept]
  unfold column
  rw [broadcastInDim_apply _ bcast_S100000_S100000x1_0 _ (ix2 (⟨(i 0).val, idx2_lt0 i⟩ : Fin 100000) (0 : Fin 1))
    (ix1 (⟨(i 0).val, idx2_lt0 i⟩ : Fin 100000)) (fun a => match a with
      | ⟨0, _⟩ => by show (i 0).val = if (100000 : Nat) = 1 then 0 else (i 0).val; rw [if_neg (by decide)])]
  exact Cert.NodeMax.take_max_eq_rows_max gather_S100000_S100000x16x1_S100000x16_n_0_n_n_0_2_1_wf
    reducesTo_S100000x16_S100000_d1 wf2 h2 h_S_ hu (m ((c.tc : Thread nD τ).loc main_arg0))
    (shapeCast S100000 (W1 m ρ c (Proc.devRef .tc main_v0)) shapeCasts_S100000x1_S100000)
    (slots (F := Ideal) (m ((c.tc : Thread nD τ).loc main_arg1))) 0xFF800000#32
    (fun v => table_apply m ρ c v) (⟨(i 0).val, idx2_lt0 i⟩ : Fin 100000)

end Cert.KernelIdeal.KernelValue

end
-- ==== Proof.RefValue.lean ====
/-
  The reference, read at an entry: entry `(n, f)` of its result is — whatever `f` — the maximum over the gathered
  `[16, 128]` rows of the feature table for node `n`: the two trailing broadcasts only copy the per-node value along the
  lanes.
-/
import proofs.«120021_j65644280152900_2_alg».proof.Proof.Gen.ReferenceIdeal.Read
import Idealize.ShloMosaic.Lib.ValueIdx

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

variable {F : FTy → Type} [FloatOps F]

/-- Entry `(n, f)` of the reference's result is the per-node maximum at `n`. -/
theorem result_apply (x0 : (⟨S100000x128, .f32⟩ : BufTy).Contents (Elt F)) (x1 : (⟨S100000x16, .i32⟩ : BufTy).Contents (Elt F))
    (i : S100000x128.Idx) :
    val_main_v9 (F := F) x0 x1 i
      = Host.reduce FloatOps.maximumf
          (Host.gather gather_S100000x128_S100000x16x1_S100000x16x128_2_0_n_n_0_2_1128 x0 (val_main_v5 (F := F) x1))
          (constant S_ .f32 0xFF800000#32) reducesTo_S100000x16x128_S100000_d1_2 h_S_
          (ix1 (⟨(i 0).val, idx2_lt0 i⟩ : Fin 100000)) := by
  rw [val_main_v9_apply, val_main_v8_apply]
  unfold val_main_v7 val_main_v6 val_main_cst
  congr 1
  funext a
  match a with
  | ⟨0, _⟩ => rfl

end Cert.ReferenceIdeal.RefValue

end
-- ==== Proof.lean ====
/-
  The proof of `Cert.Claim`: the per-node maximum aggregator.

  For node `n` the result row is, in every lane, the maximum over the node's 16 neighbour slots and the 128 lanes of the
  feature table's rows at those slots (a slot read as a signed index, a negative one shifted up by the table's length,
  then clamped into the table). The reference gathers the `[16, 128]` rows and takes one maximum over both axes. The
  kernel takes each table row's maximum over its lanes first (a launch over blocks of 2000 rows), gathers 16 of those row
  maxima per node and takes their maximum on the host, and spreads the per-node value over the lanes (a launch over
  blocks of 10000 rows). At the extended reals both are the same number: a maximum is determined by its upper bounds,
  and the two have the same ones (Proof/NodeMax.lean); only the order of `max` is used, so the precondition is never
  opened. The three frames are the generated ones (the reference's is its generated run with the result dropped), and
  nothing was rewritten on the way from the kernel to its idealization.
-/
import proofs.«120021_j65644280152900_2_alg».proof.Defs
import proofs.«120021_j65644280152900_2_alg».proof.Proof.Gen.Kernel
import proofs.«120021_j65644280152900_2_alg».proof.Proof.Gen.Kernel.Skeleton
import proofs.«120021_j65644280152900_2_alg».proof.Proof.Gen.Kernel.Launch
import proofs.«120021_j65644280152900_2_alg».proof.Proof.Gen.Kernel.Points
import proofs.«120021_j65644280152900_2_alg».proof.Proof.Gen.Kernel.Frame
import proofs.«120021_j65644280152900_2_alg».proof.Proof.Gen.KernelIdeal
import proofs.«120021_j65644280152900_2_alg».proof.Proof.Gen.KernelIdeal.Skeleton
import proofs.«120021_j65644280152900_2_alg».proof.Proof.Gen.KernelIdeal.Launch
import proofs.«120021_j65644280152900_2_alg».proof.Proof.Gen.KernelIdeal.Points
import proofs.«120021_j65644280152900_2_alg».proof.Proof.Gen.KernelIdeal.Frame
import proofs.«120021_j65644280152900_2_alg».proof.Proof.Gen.ReferenceIdeal
import proofs.«120021_j65644280152900_2_alg».proof.Proof.Gen.Pre_finite_inputs
import proofs.«120021_j65644280152900_2_alg».proof.Proof.Gen.ReferenceIdeal.Run
import proofs.«120021_j65644280152900_2_alg».proof.Proof.Gen.ReferenceIdeal.Read
import proofs.«120021_j65644280152900_2_alg».proof.Proof.KernelValue
import proofs.«120021_j65644280152900_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The kernel's slot arithmetic is the reference's: the same operations on the same argument. -/
theorem slots_eq (x1 : (⟨Cert.ReferenceIdeal.S100000x16, .i32⟩ : BufTy).Contents (Elt Ideal)) :
    Cert.KernelIdeal.HostStretch.slots (F := Ideal) x1 = Cert.ReferenceIdeal.Read.val_main_v5 (F := Ideal) x1 := rfl

/-- Both runs end with the result at the reference's term of the arguments: the kernel's by its entry-by-entry reading
    and the law of the maximum, the reference's by its generated run. -/
theorem algebraic : Cert.algebraic_KernelIdeal_ReferenceIdeal := by
  intro m ρ m' ρ' _ hagree
  refine ⟨fun c => Cert.ReferenceIdeal.Read.val_main_v9 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.KernelIdeal.RunOut.run_out (F := Ideal) m ρ)
    funext i
    refine (Cert.KernelIdeal.KernelValue.result_apply m ρ
      Cert.ReferenceIdeal.Gen.gather_S100000x128_S100000x16x1_S100000x16x128_2_0_n_n_0_2_1128_wf
      Cert.ReferenceIdeal.Gen.reducesTo_S100000x16x128_S100000_d1_2 Cert.ReferenceIdeal.Gen.h_S_ c i).trans ?_
    refine Eq.trans ?_ (Cert.ReferenceIdeal.RefValue.result_apply (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) i).symm
    rw [slots_eq]
    rfl
  · refine (θ_run Cert.ReferenceIdeal.defs _ _).mono (fun r h c => ⟨?_, (h c).2⟩)
      (Cert.ReferenceIdeal.Value.run (F := Ideal) m' ρ')
    rw [(h c).1, Cert.ReferenceIdeal.Read.val_main_v9_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
